-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2016 : Shape := ⟨2, ![8192, 2016]⟩
abbrev S_ : Shape := ⟨0, ![]⟩

class Facts : Prop where
  bcast_S_S8192x2016 : S_.BroadcastsInDim S8192x2016 (![] : Fin 0 → Fin S8192x2016.rank)
  reducesTo_S8192x2016_S_d0_1 : S8192x2016.ReducesTo [0, 1] S_
  h_S_ : 0 < S_.numel

variable [Facts]

def fn {F : FTy → Type} [FloatOps F] (main_arg0 : FVec F S8192x2016 .f32) : IVec S_ 1 :=
  let main_v0 : FVec F S8192x2016 .f32 := Host.absf main_arg0
  let main_cst : FVec F S_ .f32 := constant S_ .f32 0x7F800000#32
  let main_v1 : FVec F S8192x2016 .f32 := broadcastInDim S8192x2016 ![] bcast_S_S8192x2016 main_cst
  let main_v2 : IVec S8192x2016 1 := cmpf .olt main_v0 main_v1
  let main_c : IVec S_ 1 := constantI S_ 1 1#1
  let main_v3 : IVec S_ 1 := (fun x v => Host.reduce IntOp.andi x v reducesTo_S8192x2016_S_d0_1 h_S_) main_v2 main_c
  main_v3
-- ==== Kernel.lean ====
abbrev S8192x2016 : Shape := ⟨2, ![8192, 2016]⟩
abbrev S2016 : Shape := ⟨1, ![2016]⟩
abbrev S_ : Shape := ⟨0, ![]⟩
abbrev S8192x64x64 : Shape := ⟨3, ![8192, 64, 64]⟩
abbrev S2016x1 : Shape := ⟨2, ![2016, 1]⟩
abbrev S2016x2 : Shape := ⟨2, ![2016, 2]⟩
abbrev S128x64x64 : Shape := ⟨3, ![128, 64, 64]⟩
abbrev S64x64 : Shape := ⟨2, ![64, 64]⟩
abbrev S1x64x64 : Shape := ⟨3, ![1, 64, 64]⟩

abbrev nBuf : Space → Nat
  | .hbm => 35
  | .vmem => 4
  | .smem => 0
  | _ => 0

abbrev bufTy : (tb : Table) → Fin (tcTables nBuf tb) → BufTy
  | .hbm, ⟨0, _⟩ => ⟨S8192x2016, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S2016, .i1⟩
  | .hbm, ⟨6, _⟩ => ⟨S2016, .i1⟩
  | .hbm, ⟨7, _⟩ => ⟨S_, .f32⟩
  | .hbm, ⟨8, _⟩ => ⟨S8192x64x64, .f32⟩
  | .hbm, ⟨9, _⟩ => ⟨S_, .i32⟩
  | .hbm, ⟨10, _⟩ => ⟨S2016, .i32⟩
  | .hbm, ⟨11, _⟩ => ⟨S2016, .i32⟩
  | .hbm, ⟨12, _⟩ => ⟨S2016, .i32⟩
  | .hbm, ⟨13, _⟩ => ⟨S_, .i32⟩
  | .hbm, ⟨14, _⟩ => ⟨S2016, .i32⟩
  | .hbm, ⟨15, _⟩ => ⟨S2016, .i32⟩
  | .hbm, ⟨16, _⟩ => ⟨S2016, .i32⟩
  | .hbm, ⟨17, _⟩ => ⟨S2016x1, .i32⟩
  | .hbm, ⟨18, _⟩ => ⟨S2016x1, .i32⟩
  | .hbm, ⟨19, _⟩ => ⟨S2016x2, .i32⟩
  | .hbm, ⟨20, _⟩ => ⟨S8192x64x64, .f32⟩
  | .hbm, ⟨21, _⟩ => ⟨S8192x2016, .f32⟩
  | .hbm, ⟨22, _⟩ => ⟨S_, .i32⟩
  | .hbm, ⟨23, _⟩ => ⟨S2016, .i32⟩
  | .hbm, ⟨24, _⟩ => ⟨S2016, .i32⟩
  | .hbm, ⟨25, _⟩ => ⟨S2016, .i32⟩
  | .hbm, ⟨26, _⟩ => ⟨S_, .i32⟩
  | .hbm, ⟨27, _⟩ => ⟨S2016, .i32⟩
  | .hbm, ⟨28, _⟩ => ⟨S2016, .i32⟩
  | .hbm, ⟨29, _⟩ => ⟨S2016, .i32⟩
  | .hbm, ⟨30, _⟩ => ⟨S2016x1, .i32⟩
  | .hbm, ⟨31, _⟩ => ⟨S2016x1, .i32⟩
  | .hbm, ⟨32, _⟩ => ⟨S2016x2, .i32⟩
  | .hbm, ⟨33, _⟩ => ⟨S8192x64x64, .f32⟩
  | .hbm, ⟨34, _⟩ => ⟨S8192x64x64, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | _, _ => ⟨S8192x2016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_cst : Ref sig .tc := ⟨.hbm, 7, rfl⟩
abbrev main_v0 : Ref sig .tc := ⟨.hbm, 8, rfl⟩
abbrev main_c_5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_6 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_7 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_8 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S8192x64x64 : S_.BroadcastsInDim S8192x64x64 (![] : Fin 0 → Fin S8192x64x64.rank)
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  broadcasts_S1x64x64_S128x64x64 : S1x64x64.Broadcasts S128x64x64
  scatter_S8192x64x64_S2016x2_S8192x2016_0_12_12_1_wf : ScatterDims.WF S8192x64x64 S2016x2 S8192x2016 [0] [1, 2] [1, 2] 1
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)

variable [Facts₀]

def scatter_S8192x64x64_S2016x2_S8192x2016_0_12_12_1 : ScatterDims S8192x64x64 S2016x2 S8192x2016 where
  updateWindowDims := [0]
  insertedWindowDims := [1, 2]
  scatterDimsToOperandDims := [1, 2]
  indexVectorDim := 1
  wf := scatter_S8192x64x64_S2016x2_S8192x2016_0_12_12_1_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_v21) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x2016 : Shape := ⟨2, ![8192, 2016]⟩
abbrev S2016 : Shape := ⟨1, ![2016]⟩
abbrev S_ : Shape := ⟨0, ![]⟩
abbrev S8192x64x64 : Shape := ⟨3, ![8192, 64, 64]⟩
abbrev S2016x1 : Shape := ⟨2, ![2016, 1]⟩
abbrev S2016x2 : Shape := ⟨2, ![2016, 2]⟩
abbrev S64x64 : Shape := ⟨2, ![64, 64]⟩

abbrev nBuf : Space → Nat
  | .hbm => 115
  | .vmem => 0
  | .smem => 0
  | _ => 0

abbrev bufTy : (tb : Table) → Fin (tcTables nBuf tb) → BufTy
  | .hbm, ⟨0, _⟩ => ⟨S8192x2016, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S2016, .i1⟩
  | .hbm, ⟨6, _⟩ => ⟨S2016, .i1⟩
  | .hbm, ⟨7, _⟩ => ⟨S_, .f32⟩
  | .hbm, ⟨8, _⟩ => ⟨S8192x64x64, .f32⟩
  | .hbm, ⟨9, _⟩ => ⟨S_, .i32⟩
  | .hbm, ⟨10, _⟩ => ⟨S2016, .i32⟩
  | .hbm, ⟨11, _⟩ => ⟨S2016, .i32⟩
  | .hbm, ⟨12, _⟩ => ⟨S2016, .i32⟩
  | .hbm, ⟨13, _⟩ => ⟨S_, .i32⟩
  | .hbm, ⟨14, _⟩ => ⟨S2016, .i32⟩
  | .hbm, ⟨15, _⟩ => ⟨S2016, .i32⟩
  | .hbm, ⟨16, _⟩ => ⟨S2016, .i32⟩
  | .hbm, ⟨17, _⟩ => ⟨S2016x1, .i32⟩
  | .hbm, ⟨18, _⟩ => ⟨S2016x1, .i32⟩
  | .hbm, ⟨19, _⟩ => ⟨S2016x2, .i32⟩
  | .hbm, ⟨20, _⟩ => ⟨S8192x64x64, .f32⟩
  | .hbm, ⟨21, _⟩ => ⟨S8192x2016, .f32⟩
  | .hbm, ⟨22, _⟩ => ⟨S_, .i32⟩
  | .hbm, ⟨23, _⟩ => ⟨S2016, .i32⟩
  | .hbm, ⟨24, _⟩ => ⟨S2016, .i32⟩
  | .hbm, ⟨25, _⟩ => ⟨S2016, .i32⟩
  | .hbm, ⟨26, _⟩ => ⟨S_, .i32⟩
  | .hbm, ⟨27, _⟩ => ⟨S2016, .i32⟩
  | .hbm, ⟨28, _⟩ => ⟨S2016, .i32⟩
  | .hbm, ⟨29, _⟩ => ⟨S2016, .i32⟩
  | .hbm, ⟨30, _⟩ => ⟨S2016x1, .i32⟩
  | .hbm, ⟨31, _⟩ => ⟨S2016x1, .i32⟩
  | .hbm, ⟨32, _⟩ => ⟨S2016x2, .i32⟩
  | .hbm, ⟨33, _⟩ => ⟨S8192x64x64, .f32⟩
  | .hbm, ⟨34, _⟩ => ⟨S_, .f32⟩
  | .hbm, ⟨35, _⟩ => ⟨S8192x64x64, .f32⟩
  | .hbm, ⟨36, _⟩ => ⟨S8192x64x64, .f32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S64x64, .f32⟩
  | .hbm, ⟨44, _⟩ => ⟨S8192x64x64, .f32⟩
  | .hbm, ⟨45, _⟩ => ⟨S8192x64x64, .f32⟩
  | .hbm, ⟨46, _⟩ => ⟨S_, .f32⟩
  | .hbm, ⟨47, _⟩ => ⟨S8192x64x64, .f32⟩
  | .hbm, ⟨48, _⟩ => ⟨S8192x64x64, .f32⟩
  | .hbm, ⟨49, _⟩ => ⟨S8192x64x64, .f32⟩
  | .hbm, ⟨50, _⟩ => ⟨S8192x64x64, .f32⟩
  | .hbm, ⟨51, _⟩ => ⟨S_, .f32⟩
  | .hbm, ⟨52, _⟩ => ⟨S8192x64x64, .f32⟩
  | .hbm, ⟨53, _⟩ => ⟨S8192x64x64, .f32⟩
  | .hbm, ⟨54, _⟩ => ⟨S8192x64x64, .f32⟩
  | .hbm, ⟨55, _⟩ => ⟨S8192x64x64, .f32⟩
  | .hbm, ⟨56, _⟩ => ⟨S_, .f32⟩
  | .hbm, ⟨57, _⟩ => ⟨S8192x64x64, .f32⟩
  | .hbm, ⟨58, _⟩ => ⟨S8192x64x64, .f32⟩
  | .hbm, ⟨59, _⟩ => ⟨S8192x64x64, .f32⟩
  | .hbm, ⟨60, _⟩ => ⟨S8192x64x64, .f32⟩
  | .hbm, ⟨61, _⟩ => ⟨S_, .f32⟩
  | .hbm, ⟨62, _⟩ => ⟨S8192x64x64, .f32⟩
  | .hbm, ⟨63, _⟩ => ⟨S8192x64x64, .f32⟩
  | .hbm, ⟨64, _⟩ => ⟨S8192x64x64, .f32⟩
  | .hbm, ⟨65, _⟩ => ⟨S8192x64x64, .f32⟩
  | .hbm, ⟨66, _⟩ => ⟨S_, .f32⟩
  | .hbm, ⟨67, _⟩ => ⟨S8192x64x64, .f32⟩
  | .hbm, ⟨68, _⟩ => ⟨S8192x64x64, .f32⟩
  | .hbm, ⟨69, _⟩ => ⟨S8192x64x64, .f32⟩
  | .hbm, ⟨70, _⟩ => ⟨S8192x64x64, .f32⟩
  | .hbm, ⟨71, _⟩ => ⟨S_, .f32⟩
  | .hbm, ⟨72, _⟩ => ⟨S8192x64x64, .f32⟩
  | .hbm, ⟨73, _⟩ => ⟨S8192x64x64, .f32⟩
  | .hbm, ⟨74, _⟩ => ⟨S8192x64x64, .f32⟩
  | .hbm, ⟨75, _⟩ => ⟨S8192x64x64, .f32⟩
  | .hbm, ⟨76, _⟩ => ⟨S_, .f32⟩
  | .hbm, ⟨77, _⟩ => ⟨S8192x64x64, .f32⟩
  | .hbm, ⟨78, _⟩ => ⟨S8192x64x64, .f32⟩
  | .hbm, ⟨79, _⟩ => ⟨S8192x64x64, .f32⟩
  | .hbm, ⟨80, _⟩ => ⟨S8192x64x64, .f32⟩
  | .hbm, ⟨81, _⟩ => ⟨S_, .f32⟩
  | .hbm, ⟨82, _⟩ => ⟨S8192x64x64, .f32⟩
  | .hbm, ⟨83, _⟩ => ⟨S8192x64x64, .f32⟩
  | .hbm, ⟨84, _⟩ => ⟨S8192x64x64, .f32⟩
  | .hbm, ⟨85, _⟩ => ⟨S8192x64x64, .f32⟩
  | .hbm, ⟨86, _⟩ => ⟨S_, .f32⟩
  | .hbm, ⟨87, _⟩ => ⟨S8192x64x64, .f32⟩
  | .hbm, ⟨88, _⟩ => ⟨S8192x64x64, .f32⟩
  | .hbm, ⟨89, _⟩ => ⟨S8192x64x64, .f32⟩
  | .hbm, ⟨90, _⟩ => ⟨S8192x64x64, .f32⟩
  | .hbm, ⟨91, _⟩ => ⟨S_, .f32⟩
  | .hbm, ⟨92, _⟩ => ⟨S8192x64x64, .f32⟩
  | .hbm, ⟨93, _⟩ => ⟨S8192x64x64, .f32⟩
  | .hbm, ⟨94, _⟩ => ⟨S8192x64x64, .f32⟩
  | .hbm, ⟨95, _⟩ => ⟨S8192x64x64, .f32⟩
  | .hbm, ⟨96, _⟩ => ⟨S_, .f32⟩
  | .hbm, ⟨97, _⟩ => ⟨S8192x64x64, .f32⟩
  | .hbm, ⟨98, _⟩ => ⟨S8192x64x64, .f32⟩
  | .hbm, ⟨99, _⟩ => ⟨S8192x64x64, .f32⟩
  | .hbm, ⟨100, _⟩ => ⟨S8192x64x64, .f32⟩
  | .hbm, ⟨101, _⟩ => ⟨S_, .f32⟩
  | .hbm, ⟨102, _⟩ => ⟨S8192x64x64, .f32⟩
  | .hbm, ⟨103, _⟩ => ⟨S8192x64x64, .f32⟩
  | .hbm, ⟨104, _⟩ => ⟨S8192x64x64, .f32⟩
  | .hbm, ⟨105, _⟩ => ⟨S8192x64x64, .f32⟩
  | .hbm, ⟨106, _⟩ => ⟨S8192x64x64, .f32⟩
  | .hbm, ⟨107, _⟩ => ⟨S8192x64x64, .f32⟩
  | .hbm, ⟨108, _⟩ => ⟨S8192x64x64, .f32⟩
  | .hbm, ⟨109, _⟩ => ⟨S8192x64x64, .f32⟩
  | .hbm, ⟨110, _⟩ => ⟨S8192x64x64, .f32⟩
  | .hbm, ⟨111, _⟩ => ⟨S8192x64x64, .f32⟩
  | .hbm, ⟨112, _⟩ => ⟨S8192x64x64, .f32⟩
  | .hbm, ⟨113, _⟩ => ⟨S8192x64x64, .f32⟩
  | .hbm, ⟨114, _⟩ => ⟨S8192x64x64, .f32⟩
  | _, _ => ⟨S8192x2016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_cst : Ref sig .tc := ⟨.hbm, 7, rfl⟩
abbrev main_v0 : Ref sig .tc := ⟨.hbm, 8, rfl⟩
abbrev main_c_5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_6 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_7 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_8 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_10 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_12 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_16 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_17 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_18 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_19 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_20 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_21 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_22 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  bcast_S_S8192x64x64 : S_.BroadcastsInDim S8192x64x64 (![] : Fin 0 → Fin S8192x64x64.rank)
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  bcast_S_S64x64 : S_.BroadcastsInDim S64x64 (![] : Fin 0 → Fin S64x64.rank)
  bcast_S64x64_S8192x64x64_1_2 : S64x64.BroadcastsInDim S8192x64x64 (![1, 2] : Fin 2 → Fin S8192x64x64.rank)
  scatter_S8192x64x64_S2016x2_S8192x2016_0_12_12_1_wf : ScatterDims.WF S8192x64x64 S2016x2 S8192x2016 [0] [1, 2] [1, 2] 1
  dot_S8192x64x64_S8192x64x64_S8192x64x64_2_1_1_2_0_0_wf : DotDims.WF S8192x64x64 S8192x64x64 S8192x64x64 [2] [1] [1] [2] [0] [0]

variable [Facts₀]

def scatter_S8192x64x64_S2016x2_S8192x2016_0_12_12_1 : ScatterDims S8192x64x64 S2016x2 S8192x2016 where
  updateWindowDims := [0]
  insertedWindowDims := [1, 2]
  scatterDimsToOperandDims := [1, 2]
  indexVectorDim := 1
  wf := scatter_S8192x64x64_S2016x2_S8192x2016_0_12_12_1_wf
def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.LibDotSum.lean ====
/-
  A contraction over one axis, re-indexed: the sum over a dot's contraction index type of the operands' products
  is the sum over `Fin K` once each operand's index at the `k`-th contraction position is known.
-/
import Idealize.ShloMosaic.PureOps.Ideal.Laws
import Idealize.ShloMosaic.Lib.ValueIdx

noncomputable section

namespace Cert.Gnn

open Idealize.ShloMosaic Idealize.ShloMosaic.ValueIdx

/-- The sum over a one-axis contraction index of `lhs · rhs` is the sum over `Fin K` of the operands at the indices
    `L k`, `R k` the dot's index maps take at the `k`-th contraction position. -/
theorem dot_sum {sl sr so : Shape} (d : DotDims sl sr so) (K : Nat) (hr : d.contr.rank = 1)
    (hs : d.contr.size ⟨0, by omega⟩ = K) (lhs : sl.Idx → EReal) (rhs : sr.Idx → EReal) (j : so.Idx)
    (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    ∑ q : d.contr.Idx, lhs (d.lhsIdx j q) * rhs (d.rhsIdx j q) = ∑ k : Fin K, lhs (L k) * rhs (R k) := by
  rw [← Equiv.sum_comp (contrEquiv1 d K hr hs).symm]
  exact Finset.sum_congr rfl fun k _ => by rw [hL k, hR k]

end Cert.Gnn

end
-- ==== Proof.LibBatchMat.lean ====
/-
  A stack of `n` square matrices of side `p`, held in an array of shape [n, p, p], read one matrix at a time.
  The batched product that contracts the last axis of the left operand with the middle axis of the right one,
  keeping the leading axis as the batch, is the ordinary matrix product of the two operands' matrices, batch
  entry by batch entry: whether it is a vector unit's product into a zero accumulator or a host's general dot.
-/
import Idealize.ShloMosaic.PureOps.Ideal.Laws
import Idealize.ShloMosaic.Lib.ValueIdx
import proofs.«129917_j34445637714305_1_alg».proof.Proof.LibDotSum

noncomputable section

namespace Cert.BatchMat

open Idealize.ShloMosaic Idealize.ShloMosaic.ValueIdx

/-- The shape of a stack of `n` square matrices of side `p`. -/
abbrev Stack (n p : Nat) : Shape := ⟨3, ![n, p, p]⟩

/-- A square matrix of extended reals. -/
abbrev Mat (p : Nat) := Fin p → Fin p → EReal

/-- The matrix product over the extended reals: entry (i, j) is the sum over k of A i k · B k j. -/
def mmul {p : Nat} (A B : Mat p) : Mat p := fun i j => ∑ k : Fin p, A i k * B k j

/-- Matrix `b` of a stack. -/
def slab {n p : Nat} (X : (Stack n p).Idx → EReal) (b : Fin n) : Mat p := fun i j => X (ix3 b i j)

theorem slab_apply {n p : Nat} (X : (Stack n p).Idx → EReal) (b : Fin n) (i j : Fin p) :
    slab X b i j = X (ix3 b i j) := rfl

/-- An array of the stack's shape is determined by its matrices. -/
theorem eq_of_slab {n p : Nat} (X : (Stack n p).Idx → EReal) (y : (Stack n p).Idx) :
    X y = slab X (y 0) (y 1) (y 2) := congrArg X (eq_ix3 y)

/-- The dimension numbers of the batched product: contract axis 2 of the left with axis 1 of the right, batch over axis 0. -/
abbrev bmmDims {n p : Nat} (wf : DotDims.WF (Stack n p) (Stack n p) (Stack n p) [2] [1] [1] [2] [0] [0]) :
    DotDims (Stack n p) (Stack n p) (Stack n p) := ⟨[2], [1], [1], [2], [0], [0], wf⟩

/-- At output entry (b, i, j) the batched product's contraction sum is the sum over k of X (b, i, k) · Y (b, k, j). -/
theorem bmm_sum {n p : Nat} (wf : DotDims.WF (Stack n p) (Stack n p) (Stack n p) [2] [1] [1] [2] [0] [0])
    (X Y : (Stack n p).Idx → EReal) (b : Fin n) (i j : Fin p) :
    ∑ q : (bmmDims wf).contr.Idx, X ((bmmDims wf).lhsIdx (ix3 b i j) q) * Y ((bmmDims wf).rhsIdx (ix3 b i j) q)
      = ∑ k : Fin p, X (ix3 b i k) * Y (ix3 b k j) := by
  refine Cert.Gnn.dot_sum (bmmDims wf) p rfl rfl X Y (ix3 b i j) (fun k => ix3 b i k) (fun k => ix3 b k j) ?_ ?_
  · intro k; funext a; apply Fin.ext
    match a with
    | ⟨0, _⟩ => rfl
    | ⟨1, _⟩ => rfl
    | ⟨2, _⟩ => exact ((bmmDims wf).lhsIdx_val_of_single (cl := 2) rfl _ _).trans (contrEquiv1_symm_val (bmmDims wf) p rfl rfl k)
  · intro k; funext a; apply Fin.ext
    match a with
    | ⟨0, _⟩ => rfl
    | ⟨1, _⟩ => exact ((bmmDims wf).rhsIdx_val_of_single (cr := 1) rfl _ _).trans (contrEquiv1_symm_val (bmmDims wf) p rfl rfl k)
    | ⟨2, _⟩ => rfl

/-- The host's batched general dot, matrix by matrix, is the matrix product. -/
theorem slab_dotGeneral {n p : Nat} (d : DotDims (Stack n p) (Stack n p) (Stack n p))
    (wf : DotDims.WF (Stack n p) (Stack n p) (Stack n p) [2] [1] [1] [2] [0] [0]) (hd : d = bmmDims wf)
    (prec : Option ContractPrecision) (sched : HostSchedule)
    (X Y : FVec Ideal (Stack n p) .f32) (b : Fin n) :
    slab (FloatOps.dotGeneral d prec sched X Y) b = mmul (slab X b) (slab Y b) := by
  subst hd
  funext i j
  show FloatOps.dotGeneral (bmmDims wf) prec sched X Y (ix3 b i j) = _
  rw [Ideal.dotGeneral_apply]
  exact bmm_sum wf X Y b i j

/-- The vector unit's batched product into a zero accumulator, matrix by matrix, is the matrix product. -/
theorem slab_matmul_zero {n p : Nat} (d : DotDims (Stack n p) (Stack n p) (Stack n p))
    (wf : DotDims.WF (Stack n p) (Stack n p) (Stack n p) [2] [1] [1] [2] [0] [0]) (hd : d = bmmDims wf)
    (prec : Option ContractPrecision)
    (X Y : FVec Ideal (Stack n p) .f32) (b : Fin n) :
    slab (FloatOps.matmul d prec X Y (constant (Stack n p) .f32 0x00000000#32)) b = mmul (slab X b) (slab Y b) := by
  subst hd
  funext i j
  show FloatOps.matmul (bmmDims wf) prec X Y (constant (Stack n p) .f32 0x00000000#32) (ix3 b i j) = _
  rw [Ideal.matmul_constant_zero_apply]
  exact bmm_sum wf X Y b i j

/-! ## The entrywise operations, matrix by matrix -/

/-- The identity matrix over the extended reals. -/
def eyeM (p : Nat) : Mat p := fun i j => if i = j then 1 else 0

/-- Every entry multiplied by the scalar `w` (on the right, as the programs write it). -/
def scaleM {p : Nat} (w : EReal) (A : Mat p) : Mat p := fun i j => A i j * w

/-- The entrywise sum. -/
def addM {p : Nat} (A B : Mat p) : Mat p := fun i j => A i j + B i j

/-- The square of a matrix. -/
def msq {p : Nat} (A : Mat p) : Mat p := mmul A A

/-- A sum of two stacks, matrix by matrix. -/
theorem slab_addf {n p : Nat} (X Y : FVec Ideal (Stack n p) .f32) (b : Fin n) :
    slab (addf X Y) b = addM (slab X b) (slab Y b) := rfl

/-- A stack times a splat of the scalar `w` (a vector broadcast of a scalar), matrix by matrix. -/
theorem slab_mulf_splat {n p : Nat} (X : FVec Ideal (Stack n p) .f32) (w : Ideal .f32) (b : Fin n) :
    slab (mulf X (broadcast (Stack n p) w)) b = scaleM w (slab X b) := rfl

/-- A stack times a host broadcast of a scalar constant, matrix by matrix. -/
theorem slab_mulf_const {n p : Nat} (X : FVec Ideal (Stack n p) .f32) (w : BitVec 32)
    (h : (⟨0, ![]⟩ : Shape).BroadcastsInDim (Stack n p) (![] : Fin 0 → Fin (Stack n p).rank)) (b : Fin n) :
    slab (mulf X (broadcastInDim (Stack n p) ![] h (constant (F := Ideal) ⟨0, ![]⟩ .f32 w))) b
      = scaleM (Ideal.ofBits .f32 w) (slab X b) := rfl

end Cert.BatchMat

end
-- ==== Proof.ExpmSpec.lean ====
/-
  The scaling-and-squaring exponential, one 64 × 64 matrix at a time, over the extended reals: scale the matrix by
  2^-10, sum the identity and twelve Taylor terms T_k = (T_{k-1} · A) · r_k — r_k the single-precision word nearest
  1/k, read as the exact real it denotes —, then square ten times. Both programs compute exactly this, with the sums
  and products in this order, so no law of arithmetic beyond the definition of the matrix product is needed.
-/
import proofs.«129917_j34445637714305_1_alg».proof.Proof.LibBatchMat

noncomputable section

namespace Cert.Expm

open Idealize.ShloMosaic Cert.BatchMat

/-- The matrices of this problem. -/
abbrev M := Mat 64

/-- The word the programs multiply the k-th Taylor term by: single precision's nearest to 1/k. -/
def recipWord : Nat → BitVec 32
  | 1 => 0x3F800000#32 | 2 => 0x3F000000#32 | 3 => 0x3EAAAAAB#32 | 4 => 0x3E800000#32
  | 5 => 0x3E4CCCCD#32 | 6 => 0x3E2AAAAB#32 | 7 => 0x3E124925#32 | 8 => 0x3E000000#32
  | 9 => 0x3DE38E39#32 | 10 => 0x3DCCCCCD#32 | 11 => 0x3DBA2E8C#32 | 12 => 0x3DAAAAAB#32
  | _ => 0x00000000#32

/-- That word's value. -/
def recip (k : Nat) : EReal := Ideal.ofBits .f32 (recipWord k)

/-- The k-th Taylor term of the scaled matrix `A`: T_0 = I, T_{k+1} = (T_k · A) · r_{k+1}. -/
def term (A : M) : Nat → M
  | 0 => eyeM 64
  | k + 1 => scaleM (recip (k + 1)) (mmul (term A k) A)

/-- The partial sums R_k = I + T_1 + … + T_k, added in this order. -/
def partialSum (A : M) : Nat → M
  | 0 => eyeM 64
  | k + 1 => addM (partialSum A k) (term A (k + 1))

/-- Ten applications of one step. -/
def pow10 {α : Type} (f : α → α) (x : α) : α := f (f (f (f (f (f (f (f (f (f x)))))))))

/-- The scale 2^-10, as the word both programs hold. -/
def scaleDown : EReal := Ideal.ofBits .f32 0x3A800000#32

/-- The result matrix for the antisymmetric matrix `K`. -/
def expm (K : M) : M := pow10 msq (partialSum (scaleM scaleDown K) 12)

/-- The second half of the computation from the seventh partial sum `R` and the unscaled product `P` = T_7 · A. -/
def finish (A R P : M) : M :=
  let T8 := scaleM (recip 8) P
  let R8 := addM R T8
  let T9 := scaleM (recip 9) (mmul T8 A)
  let R9 := addM R8 T9
  let T10 := scaleM (recip 10) (mmul T9 A)
  let R10 := addM R9 T10
  let T11 := scaleM (recip 11) (mmul T10 A)
  let R11 := addM R10 T11
  let T12 := scaleM (recip 12) (mmul T11 A)
  let R12 := addM R11 T12
  pow10 msq R12

/-- From the true seventh partial sum and product it is the whole computation. -/
theorem finish_eq (A : M) : finish A (partialSum A 7) (mmul (term A 7) A) = pow10 msq (partialSum A 12) := rfl

/-! ## The identity's entries, as the two programs compute them -/

/-- Two numbers below 64, written as 32-bit words, are the same word only when they are the same number. -/
theorem word_eq_iff (i j : Fin 64) : BitVec.ofNat 32 i.val = BitVec.ofNat 32 j.val ↔ i = j := by
  constructor
  · intro h
    have h' := congrArg BitVec.toNat h
    simp only [BitVec.toNat_ofNat] at h'
    have hi := i.isLt; have hj := j.isLt
    exact Fin.ext (by omega)
  · rintro rfl; rfl

/-- The comparison flag of row number against column number: one on the diagonal, zero off it. -/
theorem flag_eq (i j : Fin 64) :
    IntOp.cmpi .eq (BitVec.ofNat 32 i.val) (BitVec.ofNat 32 j.val) = if i = j then 1#1 else 0#1 := by
  show BitVec.ofBool (BitVec.ofNat 32 i.val == BitVec.ofNat 32 j.val) = _
  by_cases h : i = j
  · subst h; rw [if_pos rfl, beq_self_eq_true]; rfl
  · have h' : BitVec.ofNat 32 i.val ≠ BitVec.ofNat 32 j.val := fun e => h ((word_eq_iff i j).mp e)
    rw [if_neg h, beq_eq_false_iff_ne.mpr h']; rfl

/-- The kernel's entry: the flag widened to 32 bits without sign and read as a signed integer. -/
theorem eye_signed (i j : Fin 64) :
    FloatOps.sitofp (F := Ideal) .f32 ((IntOp.cmpi .eq (BitVec.ofNat 32 i.val) (BitVec.ofNat 32 j.val)).setWidth 32)
      = eyeM 64 i j := by
  rw [flag_eq]
  unfold eyeM
  by_cases h : i = j
  · rw [if_pos h, if_pos h]
    show (((BitVec.setWidth 32 1#1).toInt : ℝ) : EReal) = 1
    have : (BitVec.setWidth 32 1#1).toInt = 1 := by decide
    rw [this]; norm_num
  · rw [if_neg h, if_neg h]
    show (((BitVec.setWidth 32 0#1).toInt : ℝ) : EReal) = 0
    have : (BitVec.setWidth 32 0#1).toInt = 0 := by decide
    rw [this]; norm_num

/-- The reference's entry: zero added to the row number, the flag read as an unsigned integer. -/
theorem eye_unsigned (i j : Fin 64) :
    FloatOps.uitofp (F := Ideal) .f32 (IntOp.cmpi .eq (IntOp.addi (BitVec.ofNat 32 i.val) 0#32) (BitVec.ofNat 32 j.val))
      = eyeM 64 i j := by
  have h0 : IntOp.addi (BitVec.ofNat 32 i.val) 0#32 = BitVec.ofNat 32 i.val := by
    unfold IntOp.addi; exact BitVec.add_zero _
  rw [h0, flag_eq]
  unfold eyeM
  by_cases h : i = j
  · rw [if_pos h, if_pos h]
    show (((1#1 : BitVec 1).toNat : ℝ) : EReal) = 1
    have : (1#1 : BitVec 1).toNat = 1 := by decide
    rw [this]; norm_num
  · rw [if_neg h, if_neg h]
    show (((0#1 : BitVec 1).toNat : ℝ) : EReal) = 0
    have : (0#1 : BitVec 1).toNat = 0 := by decide
    rw [this]; norm_num

end Cert.Expm

end
-- ==== Proof.KerPay.lean ====
/-
  The kernel's body on one block of 128 matrices, one matrix at a time. Its payloads are a chain of short terms — the
  scaled block, the identity, seven Taylor terms, their partial sum, the eighth term's unscaled product, and the rest
  of the series with the ten squarings —, each a batched product, a product with a splat or a sum of earlier ones; so
  matrix `b` of what the body stores is the scaling-and-squaring exponential of matrix `b` of the block it loaded.
-/
import proofs.«129917_j34445637714305_1_alg».proof.Proof.Gen.KernelIdeal.Skeleton
import proofs.«129917_j34445637714305_1_alg».proof.Proof.ExpmSpec
import Idealize.ShloMosaic.Lib.Pipeline.Value
import Idealize.ShloMosaic.Lib.ValueIdx

noncomputable section

namespace Cert.KernelIdeal.Payload

open Cert.KernelIdeal Cert.KernelIdeal.Gen
open Idealize.ShloMosaic Idealize.ShloMosaic.ValueIdx
open Cert.BatchMat Cert.Expm

/-- A block's worth of matrices at the ideal values. -/
abbrev Blk := FVec Ideal S128x64x64 .f32

/-- The vector unit's batched product into a zero accumulator is the matrix product, matrix by matrix. -/
theorem slab_mm (X Y : Blk) (b : Fin 128) :
    slab (matmul dot_S128x64x64_S128x64x64_S128x64x64_2_1_1_2_0_0 (some .fp32) X Y (constant S128x64x64 .f32 0x00000000#32)) b
      = mmul (slab X b) (slab Y b) :=
  slab_matmul_zero _ Facts₀.dot_S128x64x64_S128x64x64_S128x64x64_2_1_1_2_0_0_wf rfl (some .fp32) X Y b

/-- One Taylor step of the body: the product with the scaled block, times a splat of the word `w`. -/
theorem slab_step (T A : Blk) (w : BitVec 32) (b : Fin 128) :
    slab (mulf (matmul dot_S128x64x64_S128x64x64_S128x64x64_2_1_1_2_0_0 (some .fp32) T A (constant S128x64x64 .f32 0x00000000#32))
        (broadcast S128x64x64 (Scalar.ofBits .f32 w))) b
      = scaleM (Ideal.ofBits .f32 w) (mmul (slab T b) (slab A b)) := by
  rw [slab_mulf_splat, slab_mm]; rfl

/-- The loaded block scaled by 2^-10 (the shape cast before it is the identity). -/
theorem slab_pay2 (x : Vec Ideal S128x64x64 .f32) (b : Fin 128) :
    slab (k0_pay2 x) b = scaleM scaleDown (slab x b) := by
  unfold k0_pay2
  dsimp only
  rw [shapeCast_self]; rfl

/-- The identity's entry at an index of the 64 × 64 plane whose coordinates are `i` and `j`. -/
theorem eye_at (q : S64x64.Idx) (i j : Fin 64) (hi : (q 0).val = i.val) (hj : (q 1).val = j.val) :
    FloatOps.sitofp (F := Ideal) .f32 ((IntOp.cmpi .eq (iota .tc S64x64 32 [0] iota_S64x64_d0_w32 q)
      (iota .tc S64x64 32 [1] iota_S64x64_d1_w32 q)).setWidth 32) = eyeM 64 i j := by
  rw [iota_single_apply, iota_single_apply, hi, hj]
  exact eye_signed i j

/-- The body's identity: row number against column number, compared, widened, converted, given a unit leading axis and
    repeated along the block. -/
theorem slab_pay3 (b : Fin 128) : slab (k0_pay3 (F := Ideal)) b = eyeM 64 := by
  funext i j
  rw [slab_apply]
  unfold k0_pay3
  dsimp only
  rw [broadcastTo_apply _ _ (ix3 b i j) (ix3 (0 : Fin 1) i j) (fun a => by match a with | ⟨0, _⟩ => rfl | ⟨1, _⟩ => rfl | ⟨2, _⟩ => rfl)]
  refine (shapeCast_addUnit_apply ![64, 64] _ _ _).trans ?_
  exact eye_at _ i j rfl rfl

theorem slab_pay4 (x : Vec Ideal S128x64x64 .f32) (b : Fin 128) :
    slab (k0_pay4 x) b = term (scaleM scaleDown (slab x b)) 1 :=
  (slab_step (k0_pay3 (F := Ideal)) (k0_pay2 x) 0x3F800000#32 b).trans (by rw [slab_pay3, slab_pay2]; rfl)

theorem slab_pay5 (x : Vec Ideal S128x64x64 .f32) (b : Fin 128) :
    slab (k0_pay5 x) b = term (scaleM scaleDown (slab x b)) 2 :=
  (slab_step (k0_pay4 x) (k0_pay2 x) 0x3F000000#32 b).trans (by rw [slab_pay4, slab_pay2]; rfl)

theorem slab_pay6 (x : Vec Ideal S128x64x64 .f32) (b : Fin 128) :
    slab (k0_pay6 x) b = term (scaleM scaleDown (slab x b)) 3 :=
  (slab_step (k0_pay5 x) (k0_pay2 x) 0x3EAAAAAB#32 b).trans (by rw [slab_pay5, slab_pay2]; rfl)

theorem slab_pay7 (x : Vec Ideal S128x64x64 .f32) (b : Fin 128) :
    slab (k0_pay7 x) b = term (scaleM scaleDown (slab x b)) 4 :=
  (slab_step (k0_pay6 x) (k0_pay2 x) 0x3E800000#32 b).trans (by rw [slab_pay6, slab_pay2]; rfl)

theorem slab_pay8 (x : Vec Ideal S128x64x64 .f32) (b : Fin 128) :
    slab (k0_pay8 x) b = term (scaleM scaleDown (slab x b)) 5 :=
  (slab_step (k0_pay7 x) (k0_pay2 x) 0x3E4CCCCD#32 b).trans (by rw [slab_pay7, slab_pay2]; rfl)

theorem slab_pay9 (x : Vec Ideal S128x64x64 .f32) (b : Fin 128) :
    slab (k0_pay9 x) b = term (scaleM scaleDown (slab x b)) 6 :=
  (slab_step (k0_pay8 x) (k0_pay2 x) 0x3E2AAAAB#32 b).trans (by rw [slab_pay8, slab_pay2]; rfl)

theorem slab_pay10 (x : Vec Ideal S128x64x64 .f32) (b : Fin 128) :
    slab (k0_pay10 x) b = term (scaleM scaleDown (slab x b)) 7 :=
  (slab_step (k0_pay9 x) (k0_pay2 x) 0x3E124925#32 b).trans (by rw [slab_pay9, slab_pay2]; rfl)

/-- The seventh partial sum. -/
theorem slab_pay11 (x : Vec Ideal S128x64x64 .f32) (b : Fin 128) :
    slab (k0_pay11 x) b = partialSum (scaleM scaleDown (slab x b)) 7 := by
  show slab (addf (addf (addf (addf (addf (addf (addf (k0_pay3 (F := Ideal)) (k0_pay4 x)) (k0_pay5 x)) (k0_pay6 x)) (k0_pay7 x)) (k0_pay8 x)) (k0_pay9 x)) (k0_pay10 x)) b = _
  simp only [slab_addf, slab_pay3, slab_pay4, slab_pay5, slab_pay6, slab_pay7, slab_pay8, slab_pay9, slab_pay10]
  rfl

/-- The eighth term's product, not yet scaled. -/
theorem slab_pay12 (x : Vec Ideal S128x64x64 .f32) (b : Fin 128) :
    slab (k0_pay12 x) b = mmul (term (scaleM scaleDown (slab x b)) 7) (scaleM scaleDown (slab x b)) :=
  (slab_mm (k0_pay10 x) (k0_pay2 x) b).trans (by rw [slab_pay10, slab_pay2])

set_option maxRecDepth 8192 in
/-- The rest of the series and the ten squarings, from whatever the first half handed over. -/
theorem slab_pay1 (v3 v38 v39 : Blk) (b : Fin 128) :
    slab (k0_pay1 v3 v38 v39) b = finish (slab v3 b) (slab v38 b) (slab v39 b) := by
  unfold k0_pay1
  dsimp only
  simp only [slab_mm, slab_mulf_splat, slab_addf]
  rfl

/-- WHAT THE BODY STORES, one matrix at a time: the exponential of that matrix of the loaded block. -/
theorem slab_stored (x : Vec Ideal S128x64x64 .f32) (b : Fin 128) :
    slab (k0_pay1 (k0_pay2 x) (k0_pay11 x) (k0_pay12 x)) b = expm (slab x b) := by
  rw [slab_pay1, slab_pay2, slab_pay11, slab_pay12]
  exact finish_eq _

end Cert.KernelIdeal.Payload

end
-- ==== Proof.KerBlock.lean ====
/-
  One grid point of the kernel, for arbitrary contents of the input array. Point `t` loads matrices 128·t … 128·t + 127
  of the input stack and stores their exponentials at the same places of the result; so what the point writes back is
  block `t` of the stack of exponentials, whatever the input array holds.
-/
import proofs.«129917_j34445637714305_1_alg».proof.Proof.Gen.KernelIdeal.Frame
import proofs.«129917_j34445637714305_1_alg».proof.Proof.KerPay
import Idealize.ShloMosaic.Lib.Pipeline.Value

noncomputable section

namespace Cert.KernelIdeal.Whole

open Cert.KernelIdeal Cert.KernelIdeal.Gen Cert.KernelIdeal.Payload
open Idealize.ShloMosaic Idealize.ShloMosaic.TcCoe Idealize.SL.Sem Idealize.ShloMosaic.ValueIdx
open Cert.BatchMat Cert.Expm

/-! ## One function for the whole result -/

/-- Every matrix of a stack replaced by its exponential. -/
def G (K : S8192x64x64.Idx → EReal) : S8192x64x64.Idx → EReal :=
  fun y => expm (slab K (y 0)) (y 1) (y 2)

theorem slab_G (K : S8192x64x64.Idx → EReal) (b : Fin 8192) : slab (G K) b = expm (slab K b) := rfl

/-- What the body stores, at an index of the block. -/
theorem stored_apply (x : Vec Ideal S128x64x64 .f32) (y : S128x64x64.Idx) :
    k0_pay1 (k0_pay2 x) (k0_pay11 x) (k0_pay12 x) y = expm (slab x (y 0)) (y 1) (y 2) :=
  (eq_of_slab (k0_pay1 (k0_pay2 x) (k0_pay11 x) (k0_pay12 x)) y).trans (congrFun (congrFun (slab_stored x (y 0)) (y 1)) (y 2))

theorem hz : (![0, 0, 0] : Fin 3 → Nat) = fun _ => 0 := funext fun a => by fin_cases a <;> rfl

/-- The printed index maps, decided over the grid: both windows' block at point `t` is block `t` along the stack. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Block `t` of `G K`, for ANY stack `K`: if `x` is block `t` of `K`, what the body stores from `x` is block `t` of
    the stack of exponentials. -/
theorem stored_block (K : S8192x64x64.Idx → EReal) (t : Fin cfg0.N) (x : Vec Ideal S128x64x64 .f32)
    (hx : ∀ y' : S128x64x64.Idx, x y' = K (((cfg0.win 0).blk t).view.emb y')) (y : S128x64x64.Idx) :
    k0_pay1 (k0_pay2 x) (k0_pay11 x) (k0_pay12 x) y = G K (((cfg0.win 1).blk t).view.emb y) := by
  obtain ⟨e0, e1, e2, f0, f1, f2⟩ := idx_facts t
  refine (stored_apply x y).trans ?_
  show expm (slab x (y 0)) (y 1) (y 2)
    = expm (slab K ((((cfg0.win 1).blk t).view.emb y) 0)) ((((cfg0.win 1).blk t).view.emb y) 1) ((((cfg0.win 1).blk t).view.emb y) 2)
  have h1 : (y 1 : Fin 64) = (((cfg0.win 1).blk t).view.emb y) 1 := Fin.ext (by
    show (y 1).val = win0_1.index t (1 : Fin 3) * 64 + 1 * (y 1).val; omega)
  have h2 : (y 2 : Fin 64) = (((cfg0.win 1).blk t).view.emb y) 2 := Fin.ext (by
    show (y 2).val = win0_1.index t (2 : Fin 3) * 64 + 1 * (y 2).val; omega)
  have hs : slab x (y 0) = slab K ((((cfg0.win 1).blk t).view.emb y) 0) := by
    funext i j
    refine (hx (ix3 (y 0) i j)).trans ?_
    show K (((cfg0.win 0).blk t).view.emb (ix3 (y 0) i j)) = K (ix3 ((((cfg0.win 1).blk t).view.emb y) 0) i j)
    refine congrArg K (funext fun a => Fin.ext ?_)
    match a with
    | ⟨0, _⟩ => show win0_0.index t (0 : Fin 3) * 128 + 1 * (y 0).val = win0_1.index t (0 : Fin 3) * 128 + 1 * (y 0).val; omega
    | ⟨1, _⟩ => show win0_0.index t (1 : Fin 3) * 64 + 1 * i.val = i.val; omega
    | ⟨2, _⟩ => show win0_0.index t (2 : Fin 3) * 64 + 1 * j.val = j.val; omega
  exact congr (congr (congrArg expm hs) h1) h2

/-- What point `t` writes back when the input window's array holds `A0`: the body's stores over block `t` of `A0`. -/
def flushedOf (c : Dev nD) (A0 : Buf (Elt Ideal) ((c : Thread nD τ).loc (Pipeline.arrRef spec0 (0 : Fin cfg0.W))))
    (t : Fin cfg0.N) :=
  (cfg0.win 1).cut (grid0.coords t) (out0_1 (((cfg0.win 0).blk t).view.read (Elt Ideal) A0))

/-- Whatever the input array holds, that is block `t` of the stack of exponentials of its matrices. -/
theorem flushedOf_eq (c : Dev nD) (A0 : Buf (Elt Ideal) ((c : Thread nD τ).loc (Pipeline.arrRef spec0 (0 : Fin cfg0.W))))
    (t : Fin cfg0.N) :
    flushedOf c A0 t = ((cfg0.win 1).blk t).view.read (Elt Ideal) (G A0) := by
  unfold flushedOf out0_1
  rw [View.canon_unit_zero hz]
  simp only [View.ld_unit_zero (S := S128x64x64) hz]
  funext y
  exact stored_block A0 t (((cfg0.win 0).blk t).view.read (Elt Ideal) A0) (fun _ => rfl) y

end Cert.KernelIdeal.Whole

end
-- ==== Proof.KerHead.lean ====
/-
  What the kernel's pipeline finds when it starts: the host operations before the call have built, in `main_v21`,
  the stack of antisymmetric matrices from the parameters — the parameters scattered below the diagonal of a zero
  array, their negations above it.
-/
import proofs.«129917_j34445637714305_1_alg».proof.Proof.Gen.KernelIdeal.Frame
import Idealize.ShloMosaic.Lib.StableHlo.Run
import Idealize.ShloMosaic.PureOps.Ideal

noncomputable section

namespace Cert.KernelIdeal.Whole

open Cert.KernelIdeal Cert.KernelIdeal.Gen
open Idealize.ShloMosaic Idealize.ShloMosaic.TcCoe Idealize.SL.Sem

/-! ## The stack the region finds -/

/-- The stack of antisymmetric matrices: the parameters scattered below the diagonal of a zero array, their negations
    above it (the two index tables are the program's literal tables, never opened here). -/
def skew {F : FTy → Type} [FloatOps F] (θ : FVec F S8192x2016 .f32) : FVec F S8192x64x64 .f32 :=
  Host.scatter scatter_S8192x64x64_S2016x2_S8192x2016_0_12_12_1 (fun _ b => b)
    (Host.scatter scatter_S8192x64x64_S2016x2_S8192x2016_0_12_12_1 (fun _ b => b)
      (broadcastInDim S8192x64x64 ![] bcast_S_S8192x64x64 (constant S_ .f32 0x00000000#32))
      (concatenate S2016x2 1
        [⟨S2016x1, broadcastInDim S2016x1 ![0] bcast_S2016_S2016x1_0 (select (constantI S2016 1 0#1) (addi (fun i => lit0 (S2016.rowMajor i)) (broadcastInDim S2016 ![] bcast_S_S2016 (constantI S_ 32 64#32))) (fun i => lit0 (S2016.rowMajor i)))⟩,
         ⟨S2016x1, broadcastInDim S2016x1 ![0] bcast_S2016_S2016x1_0 (select (constantI S2016 1 0#1) (addi (fun i => lit1 (S2016.rowMajor i)) (broadcastInDim S2016 ![] bcast_S_S2016 (constantI S_ 32 64#32))) (fun i => lit1 (S2016.rowMajor i)))⟩]
        concatenates_S2016x1_S2016x1_S2016x2_d1)
      θ)
    (concatenate S2016x2 1
      [⟨S2016x1, broadcastInDim S2016x1 ![0] bcast_S2016_S2016x1_0 (select (constantI S2016 1 0#1) (addi (fun i => lit1 (S2016.rowMajor i)) (broadcastInDim S2016 ![] bcast_S_S2016 (constantI S_ 32 64#32))) (fun i => lit1 (S2016.rowMajor i)))⟩,
       ⟨S2016x1, broadcastInDim S2016x1 ![0] bcast_S2016_S2016x1_0 (select (constantI S2016 1 0#1) (addi (fun i => lit0 (S2016.rowMajor i)) (broadcastInDim S2016 ![] bcast_S_S2016 (constantI S_ 32 64#32))) (fun i => lit0 (S2016.rowMajor i)))⟩]
      concatenates_S2016x1_S2016x1_S2016x2_d1)
    (Host.negf θ)

variable (m : (ℓ : Loc nD τ sig) → Buf (Elt Ideal) ℓ) (ρ : Dev nD → PrngReg)

set_option maxRecDepth 8192 in
set_option maxHeartbeats 4000000 in
/-- After the host operations before the call, from any contents, `main_v21` holds the antisymmetric stack of what
    the argument buffer held. -/
theorem head_val (W : Valuation τ sig (Elt Ideal)) :
    StableHlo.after (hostOps0 (F := Ideal)) W (Proc.devRef .tc main_v21) = skew (F := Ideal) (W (Proc.devRef .tc main_arg0)) := by
  after_results_simp <;> rfl

/-- The launch contents of the argument buffer, as the claims spell them. -/
theorem launch_arg (c : Dev nD) :
    (fun b => m (c, b)) (Proc.devRef .tc main_arg0) = m ((c : Thread nD τ).loc main_arg0) := rfl

/-- When the region is entered `main_v21` holds the antisymmetric stack of the argument. -/
theorem V_main_v21 (c : Dev nD) :
    V m c main_v21 = skew (F := Ideal) (m ((c : Thread nD τ).loc main_arg0)) :=
  (head_val (fun b => m (c, b))).trans (congrArg (skew (F := Ideal)) (launch_arg m c))

end Cert.KernelIdeal.Whole

end
-- ==== Proof.KerValue.lean ====
/-
  The kernel's result array as one function of its argument. The region finds in its input array the stack of
  antisymmetric matrices the host operations built; each of the 64 grid points writes back one block of 128
  exponentials; the blocks tile the result, so it ends holding the exponential of every matrix of the stack.
-/
import proofs.«129917_j34445637714305_1_alg».proof.Proof.Gen.KernelIdeal.Value
import proofs.«129917_j34445637714305_1_alg».proof.Proof.KerBlock
import proofs.«129917_j34445637714305_1_alg».proof.Proof.KerHead

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)
open Cert.BatchMat Cert.Expm

variable (m : (ℓ : Loc nD τ sig) → Buf (Elt Ideal) ℓ) (ρ : Dev nD → PrngReg)

/-- The input window's array is the buffer `main_v21`. -/
theorem arrRef0 : Pipeline.arrRef spec0 (0 : Fin cfg0.W) = main_v21 := rfl

/-- The stack the kernel's input window reads, as the region finds it. -/
def K0 (c : Dev nD) : S8192x64x64.Idx → EReal := V m c (Pipeline.arrRef spec0 (0 : Fin cfg0.W))

/-- The region's contents at a reference that is `main_v21` are the antisymmetric stack of the argument. -/
theorem V_at (c : Dev nD) (r : Ref sig .tc) (hr : r = main_v21) :
    HEq (V m c r) (skew (F := Ideal) (m ((c : Thread nD τ).loc main_arg0))) := by
  subst hr; exact heq_of_eq (V_main_v21 m c)

/-- The stack the input window reads is the antisymmetric stack of the argument. -/
theorem K0_eq (c : Dev nD) : K0 m c = skew (F := Ideal) (m ((c : Thread nD τ).loc main_arg0)) :=
  eq_of_heq (V_at m c _ arrRef0)

/-- WHAT POINT `t` WRITES BACK is block `t` of `G` of the stack as the region finds it. -/
theorem flushed_eq (c : Dev nD) (t : Fin cfg0.N) :
    (dats m 0 c).flushed 1 t = ((cfg0.win 1).blk t).view.read (Elt Ideal) (G (K0 m c)) :=
  (Value.flushed1 m c t).trans (flushedOf_eq c (V m c (Pipeline.arrRef spec0 (0 : Fin cfg0.W))) t)

/-- An index of the array is in point `t`'s block iff each coordinate is in the block's range on its axis. -/
theorem mem_blk (t : Fin cfg0.N) (i : S8192x64x64.Idx) :
    i ∈ ((cfg0.win 1).blk t).view.set ↔ ∀ a : Fin 3, win0_1.index t a * S128x64x64.size a ≤ (i a).val ∧ (i a).val < win0_1.index t a * S128x64x64.size a + S128x64x64.size a := by
  show i ∈ ((View.whole main_v22).slice (win0_1.rect t)).set ↔ _
  rw [View.set_slice_whole, Rect.mem_set_unit]
  exact Iff.rfl

/-- Every index of the result is in some point's block: the one its matrix number divided by 128 names. -/
theorem cover (i : S8192x64x64.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 64 := (i 2).isLt
  have hN : cfg0.N = 64 := N_0
  let t : Fin cfg0.N := ⟨(i 0).val / 128, by rw [hN]; omega⟩
  have ht : t.val = (i 0).val / 128 := rfl
  obtain ⟨e0, e1, e2, f0, f1, f2⟩ := idx_facts t
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

/-- THE RESULT ARRAY after the run: every matrix of the antisymmetric stack of the argument, exponentiated. -/
theorem final (c : Dev nD) :
    (dats m 0 c).arrAt 1 cfg0.N = G (skew (F := Ideal) (m ((c : Thread nD τ).loc main_arg0))) := by
  rw [← K0_eq m c]
  exact (dats m 0 c).arrAt_eq_of_cover 1 (G (K0 m c)) (fun t _ => flushed_eq m c t) cover

/-- The kernel's run: the result buffer at `G` of the antisymmetric stack of the argument, the argument unchanged. -/
theorem run : θ_run defs (onTc (τ := τ) (main (F := Ideal))) ⟨m, fun _ => 0, ρ⟩ fun r => ∀ c : Dev nD,
      r.2.mem ((c : Thread nD τ).loc main_v22) = G (skew (F := Ideal) (m ((c : Thread nD τ).loc main_arg0)))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefOps.lean ====
/-
  The reference's host program as a straight line of its 114 operations, cut where the mathematics changes: the
  operations that build the antisymmetric matrices from the parameters (two scatters into a zero array), the
  scaling by 2^-10 with the identity and the twelve Taylor terms (in the two stretches the program is printed in),
  and the ten squarings. Every weakly fair execution terminates with each buffer at the fold of the operations'
  results over its launch contents, and no operation writes the argument.
-/
import proofs.«129917_j34445637714305_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 33 operations that build the stack of antisymmetric matrices `main_v21` from the parameters. -/
abbrev opsSkew : List (HloOp τ sig (Elt F)) :=
  [ nullary main_c (fun i => lit0 (S2016.rowMajor i)),
    nullary main_c_0 (constantI S2016 1 0#1),
    nullary main_c_1 (fun i => lit1 (S2016.rowMajor i)),
    nullary main_c_2 (constantI S2016 1 0#1),
    nullary main_c_3 (constantI S2016 1 0#1),
    nullary main_c_4 (constantI S2016 1 0#1),
    nullary main_cst (constant S_ .f32 0x00000000#32),
    unary main_cst main_v0 (broadcastInDim S8192x64x64 ![] bcast_S_S8192x64x64 : (⟨S_, .f32⟩ : BufTy).Contents (Elt F) → (⟨S8192x64x64, .f32⟩ : BufTy).Contents (Elt F)),
    nullary main_c_5 (constantI S_ 32 64#32),
    unary main_c_5 main_v1 (broadcastInDim S2016 ![] bcast_S_S2016 : (⟨S_, .i32⟩ : BufTy).Contents (Elt F) → (⟨S2016, .i32⟩ : BufTy).Contents (Elt F)),
    binary main_c main_v1 main_v2 (addi : (⟨S2016, .i32⟩ : BufTy).Contents (Elt F) → (⟨S2016, .i32⟩ : BufTy).Contents (Elt F) → (⟨S2016, .i32⟩ : BufTy).Contents (Elt F)),
    ternary main_c_0 main_v2 main_c main_v3 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_6 (constantI S_ 32 64#32),
    unary main_c_6 main_v4 (broadcastInDim S2016 ![] bcast_S_S2016 : (⟨S_, .i32⟩ : BufTy).Contents (Elt F) → (⟨S2016, .i32⟩ : BufTy).Contents (Elt F)),
    binary main_c_1 main_v4 main_v5 (addi : (⟨S2016, .i32⟩ : BufTy).Contents (Elt F) → (⟨S2016, .i32⟩ : BufTy).Contents (Elt F) → (⟨S2016, .i32⟩ : BufTy).Contents (Elt F)),
    ternary main_c_2 main_v5 main_c_1 main_v6 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v3 main_v7 (broadcastInDim S2016x1 ![0] bcast_S2016_S2016x1_0 : (⟨S2016, .i32⟩ : BufTy).Contents (Elt F) → (⟨S2016x1, .i32⟩ : BufTy).Contents (Elt F)),
    unary main_v6 main_v8 (broadcastInDim S2016x1 ![0] bcast_S2016_S2016x1_0 : (⟨S2016, .i32⟩ : BufTy).Contents (Elt F) → (⟨S2016x1, .i32⟩ : BufTy).Contents (Elt F)),
    binary main_v7 main_v8 main_v9 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    ternary main_v0 main_v9 main_arg0 main_v10 ((fun x i u => Host.scatter scatter_S8192x64x64_S2016x2_S8192x2016_0_12_12_1 (fun _ b => b) x i u) : (⟨S8192x64x64, .f32⟩ : BufTy).Contents (Elt F) → (⟨S2016x2, .i32⟩ : BufTy).Contents (Elt F) → (⟨S8192x2016, .f32⟩ : BufTy).Contents (Elt F) → (⟨S8192x64x64, .f32⟩ : BufTy).Contents (Elt F)),
    unary main_arg0 main_v11 (Host.negf : (⟨S8192x2016, .f32⟩ : BufTy).Contents (Elt F) → (⟨S8192x2016, .f32⟩ : BufTy).Contents (Elt F)),
    nullary main_c_7 (constantI S_ 32 64#32),
    unary main_c_7 main_v12 (broadcastInDim S2016 ![] bcast_S_S2016 : (⟨S_, .i32⟩ : BufTy).Contents (Elt F) → (⟨S2016, .i32⟩ : BufTy).Contents (Elt F)),
    binary main_c_1 main_v12 main_v13 (addi : (⟨S2016, .i32⟩ : BufTy).Contents (Elt F) → (⟨S2016, .i32⟩ : BufTy).Contents (Elt F) → (⟨S2016, .i32⟩ : BufTy).Contents (Elt F)),
    ternary main_c_3 main_v13 main_c_1 main_v14 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_8 (constantI S_ 32 64#32),
    unary main_c_8 main_v15 (broadcastInDim S2016 ![] bcast_S_S2016 : (⟨S_, .i32⟩ : BufTy).Contents (Elt F) → (⟨S2016, .i32⟩ : BufTy).Contents (Elt F)),
    binary main_c main_v15 main_v16 (addi : (⟨S2016, .i32⟩ : BufTy).Contents (Elt F) → (⟨S2016, .i32⟩ : BufTy).Contents (Elt F) → (⟨S2016, .i32⟩ : BufTy).Contents (Elt F)),
    ternary main_c_4 main_v16 main_c main_v17 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v14 main_v18 (broadcastInDim S2016x1 ![0] bcast_S2016_S2016x1_0 : (⟨S2016, .i32⟩ : BufTy).Contents (Elt F) → (⟨S2016x1, .i32⟩ : BufTy).Contents (Elt F)),
    unary main_v17 main_v19 (broadcastInDim S2016x1 ![0] bcast_S2016_S2016x1_0 : (⟨S2016, .i32⟩ : BufTy).Contents (Elt F) → (⟨S2016x1, .i32⟩ : BufTy).Contents (Elt F)),
    binary main_v18 main_v19 main_v20 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    ternary main_v10 main_v20 main_v11 main_v21 ((fun x i u => Host.scatter scatter_S8192x64x64_S2016x2_S8192x2016_0_12_12_1 (fun _ b => b) x i u) : (⟨S8192x64x64, .f32⟩ : BufTy).Contents (Elt F) → (⟨S2016x2, .i32⟩ : BufTy).Contents (Elt F) → (⟨S8192x2016, .f32⟩ : BufTy).Contents (Elt F) → (⟨S8192x64x64, .f32⟩ : BufTy).Contents (Elt F)) ]

/-- The scaling, the identity and the first Taylor terms: the rest of the program's first stretch (27 operations). -/
abbrev opsTaylorA : List (HloOp τ sig (Elt F)) :=
  [ nullary main_cst_9 (constant S_ .f32 0x3A800000#32),
    unary main_cst_9 main_v22 (broadcastInDim S8192x64x64 ![] bcast_S_S8192x64x64 : (⟨S_, .f32⟩ : BufTy).Contents (Elt F) → (⟨S8192x64x64, .f32⟩ : BufTy).Contents (Elt F)),
    binary main_v21 main_v22 main_v23 (mulf : (⟨S8192x64x64, .f32⟩ : BufTy).Contents (Elt F) → (⟨S8192x64x64, .f32⟩ : BufTy).Contents (Elt F) → (⟨S8192x64x64, .f32⟩ : BufTy).Contents (Elt F)),
    nullary main_v24 (iotaInDim S64x64 32 0),
    nullary main_v25 (iotaInDim S64x64 32 1),
    nullary main_c_10 (constantI S_ 32 0#32),
    unary main_c_10 main_v26 (broadcastInDim S64x64 ![] bcast_S_S64x64 : (⟨S_, .i32⟩ : BufTy).Contents (Elt F) → (⟨S64x64, .i32⟩ : BufTy).Contents (Elt F)),
    binary main_v24 main_v26 main_v27 (addi : (⟨S64x64, .i32⟩ : BufTy).Contents (Elt F) → (⟨S64x64, .i32⟩ : BufTy).Contents (Elt F) → (⟨S64x64, .i32⟩ : BufTy).Contents (Elt F)),
    binary main_v27 main_v25 main_v28 (cmpi .eq : (⟨S64x64, .i32⟩ : BufTy).Contents (Elt F) → (⟨S64x64, .i32⟩ : BufTy).Contents (Elt F) → (⟨S64x64, .i1⟩ : BufTy).Contents (Elt F)),
    unary main_v28 main_v29 (uitofp .f32 : (⟨S64x64, .i1⟩ : BufTy).Contents (Elt F) → (⟨S64x64, .f32⟩ : BufTy).Contents (Elt F)),
    unary main_v29 main_v30 (broadcastInDim S8192x64x64 ![1, 2] bcast_S64x64_S8192x64x64_1_2 : (⟨S64x64, .f32⟩ : BufTy).Contents (Elt F) → (⟨S8192x64x64, .f32⟩ : BufTy).Contents (Elt F)),
    binary main_v30 main_v23 main_v31 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_11 (constant S_ .f32 0x3F800000#32),
    unary main_cst_11 main_v32 (broadcastInDim S8192x64x64 ![] bcast_S_S8192x64x64 : (⟨S_, .f32⟩ : BufTy).Contents (Elt F) → (⟨S8192x64x64, .f32⟩ : BufTy).Contents (Elt F)),
    binary main_v31 main_v32 main_v33 (mulf : (⟨S8192x64x64, .f32⟩ : BufTy).Contents (Elt F) → (⟨S8192x64x64, .f32⟩ : BufTy).Contents (Elt F) → (⟨S8192x64x64, .f32⟩ : BufTy).Contents (Elt F)),
    binary main_v30 main_v33 main_v34 (addf : (⟨S8192x64x64, .f32⟩ : BufTy).Contents (Elt F) → (⟨S8192x64x64, .f32⟩ : BufTy).Contents (Elt F) → (⟨S8192x64x64, .f32⟩ : BufTy).Contents (Elt F)),
    binary main_v33 main_v23 main_v35 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_12 (constant S_ .f32 0x3F000000#32),
    unary main_cst_12 main_v36 (broadcastInDim S8192x64x64 ![] bcast_S_S8192x64x64 : (⟨S_, .f32⟩ : BufTy).Contents (Elt F) → (⟨S8192x64x64, .f32⟩ : BufTy).Contents (Elt F)),
    binary main_v35 main_v36 main_v37 (mulf : (⟨S8192x64x64, .f32⟩ : BufTy).Contents (Elt F) → (⟨S8192x64x64, .f32⟩ : BufTy).Contents (Elt F) → (⟨S8192x64x64, .f32⟩ : BufTy).Contents (Elt F)),
    binary main_v34 main_v37 main_v38 (addf : (⟨S8192x64x64, .f32⟩ : BufTy).Contents (Elt F) → (⟨S8192x64x64, .f32⟩ : BufTy).Contents (Elt F) → (⟨S8192x64x64, .f32⟩ : BufTy).Contents (Elt F)),
    binary main_v37 main_v23 main_v39 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_13 (constant S_ .f32 0x3EAAAAAB#32),
    unary main_cst_13 main_v40 (broadcastInDim S8192x64x64 ![] bcast_S_S8192x64x64 : (⟨S_, .f32⟩ : BufTy).Contents (Elt F) → (⟨S8192x64x64, .f32⟩ : BufTy).Contents (Elt F)),
    binary main_v39 main_v40 main_v41 (mulf : (⟨S8192x64x64, .f32⟩ : BufTy).Contents (Elt F) → (⟨S8192x64x64, .f32⟩ : BufTy).Contents (Elt F) → (⟨S8192x64x64, .f32⟩ : BufTy).Contents (Elt F)),
    binary main_v38 main_v41 main_v42 (addf : (⟨S8192x64x64, .f32⟩ : BufTy).Contents (Elt F) → (⟨S8192x64x64, .f32⟩ : BufTy).Contents (Elt F) → (⟨S8192x64x64, .f32⟩ : BufTy).Contents (Elt F)),
    binary main_v41 main_v23 main_v43 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)) ]

/-- The remaining Taylor terms, up to their sum `main_v78` (44 operations). -/
abbrev opsTaylorB : List (HloOp τ sig (Elt F)) :=
  [ nullary main_cst_14 (constant S_ .f32 0x3E800000#32),
    unary main_cst_14 main_v44 (broadcastInDim S8192x64x64 ![] bcast_S_S8192x64x64 : (⟨S_, .f32⟩ : BufTy).Contents (Elt F) → (⟨S8192x64x64, .f32⟩ : BufTy).Contents (Elt F)),
    binary main_v43 main_v44 main_v45 (mulf : (⟨S8192x64x64, .f32⟩ : BufTy).Contents (Elt F) → (⟨S8192x64x64, .f32⟩ : BufTy).Contents (Elt F) → (⟨S8192x64x64, .f32⟩ : BufTy).Contents (Elt F)),
    binary main_v42 main_v45 main_v46 (addf : (⟨S8192x64x64, .f32⟩ : BufTy).Contents (Elt F) → (⟨S8192x64x64, .f32⟩ : BufTy).Contents (Elt F) → (⟨S8192x64x64, .f32⟩ : BufTy).Contents (Elt F)),
    binary main_v45 main_v23 main_v47 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_15 (constant S_ .f32 0x3E4CCCCD#32),
    unary main_cst_15 main_v48 (broadcastInDim S8192x64x64 ![] bcast_S_S8192x64x64 : (⟨S_, .f32⟩ : BufTy).Contents (Elt F) → (⟨S8192x64x64, .f32⟩ : BufTy).Contents (Elt F)),
    binary main_v47 main_v48 main_v49 (mulf : (⟨S8192x64x64, .f32⟩ : BufTy).Contents (Elt F) → (⟨S8192x64x64, .f32⟩ : BufTy).Contents (Elt F) → (⟨S8192x64x64, .f32⟩ : BufTy).Contents (Elt F)),
    binary main_v46 main_v49 main_v50 (addf : (⟨S8192x64x64, .f32⟩ : BufTy).Contents (Elt F) → (⟨S8192x64x64, .f32⟩ : BufTy).Contents (Elt F) → (⟨S8192x64x64, .f32⟩ : BufTy).Contents (Elt F)),
    binary main_v49 main_v23 main_v51 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_16 (constant S_ .f32 0x3E2AAAAB#32),
    unary main_cst_16 main_v52 (broadcastInDim S8192x64x64 ![] bcast_S_S8192x64x64 : (⟨S_, .f32⟩ : BufTy).Contents (Elt F) → (⟨S8192x64x64, .f32⟩ : BufTy).Contents (Elt F)),
    binary main_v51 main_v52 main_v53 (mulf : (⟨S8192x64x64, .f32⟩ : BufTy).Contents (Elt F) → (⟨S8192x64x64, .f32⟩ : BufTy).Contents (Elt F) → (⟨S8192x64x64, .f32⟩ : BufTy).Contents (Elt F)),
    binary main_v50 main_v53 main_v54 (addf : (⟨S8192x64x64, .f32⟩ : BufTy).Contents (Elt F) → (⟨S8192x64x64, .f32⟩ : BufTy).Contents (Elt F) → (⟨S8192x64x64, .f32⟩ : BufTy).Contents (Elt F)),
    binary main_v53 main_v23 main_v55 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_17 (constant S_ .f32 0x3E124925#32),
    unary main_cst_17 main_v56 (broadcastInDim S8192x64x64 ![] bcast_S_S8192x64x64 : (⟨S_, .f32⟩ : BufTy).Contents (Elt F) → (⟨S8192x64x64, .f32⟩ : BufTy).Contents (Elt F)),
    binary main_v55 main_v56 main_v57 (mulf : (⟨S8192x64x64, .f32⟩ : BufTy).Contents (Elt F) → (⟨S8192x64x64, .f32⟩ : BufTy).Contents (Elt F) → (⟨S8192x64x64, .f32⟩ : BufTy).Contents (Elt F)),
    binary main_v54 main_v57 main_v58 (addf : (⟨S8192x64x64, .f32⟩ : BufTy).Contents (Elt F) → (⟨S8192x64x64, .f32⟩ : BufTy).Contents (Elt F) → (⟨S8192x64x64, .f32⟩ : BufTy).Contents (Elt F)),
    binary main_v57 main_v23 main_v59 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_18 (constant S_ .f32 0x3E000000#32),
    unary main_cst_18 main_v60 (broadcastInDim S8192x64x64 ![] bcast_S_S8192x64x64 : (⟨S_, .f32⟩ : BufTy).Contents (Elt F) → (⟨S8192x64x64, .f32⟩ : BufTy).Contents (Elt F)),
    binary main_v59 main_v60 main_v61 (mulf : (⟨S8192x64x64, .f32⟩ : BufTy).Contents (Elt F) → (⟨S8192x64x64, .f32⟩ : BufTy).Contents (Elt F) → (⟨S8192x64x64, .f32⟩ : BufTy).Contents (Elt F)),
    binary main_v58 main_v61 main_v62 (addf : (⟨S8192x64x64, .f32⟩ : BufTy).Contents (Elt F) → (⟨S8192x64x64, .f32⟩ : BufTy).Contents (Elt F) → (⟨S8192x64x64, .f32⟩ : BufTy).Contents (Elt F)),
    binary main_v61 main_v23 main_v63 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_19 (constant S_ .f32 0x3DE38E39#32),
    unary main_cst_19 main_v64 (broadcastInDim S8192x64x64 ![] bcast_S_S8192x64x64 : (⟨S_, .f32⟩ : BufTy).Contents (Elt F) → (⟨S8192x64x64, .f32⟩ : BufTy).Contents (Elt F)),
    binary main_v63 main_v64 main_v65 (mulf : (⟨S8192x64x64, .f32⟩ : BufTy).Contents (Elt F) → (⟨S8192x64x64, .f32⟩ : BufTy).Contents (Elt F) → (⟨S8192x64x64, .f32⟩ : BufTy).Contents (Elt F)),
    binary main_v62 main_v65 main_v66 (addf : (⟨S8192x64x64, .f32⟩ : BufTy).Contents (Elt F) → (⟨S8192x64x64, .f32⟩ : BufTy).Contents (Elt F) → (⟨S8192x64x64, .f32⟩ : BufTy).Contents (Elt F)),
    binary main_v65 main_v23 main_v67 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_20 (constant S_ .f32 0x3DCCCCCD#32),
    unary main_cst_20 main_v68 (broadcastInDim S8192x64x64 ![] bcast_S_S8192x64x64 : (⟨S_, .f32⟩ : BufTy).Contents (Elt F) → (⟨S8192x64x64, .f32⟩ : BufTy).Contents (Elt F)),
    binary main_v67 main_v68 main_v69 (mulf : (⟨S8192x64x64, .f32⟩ : BufTy).Contents (Elt F) → (⟨S8192x64x64, .f32⟩ : BufTy).Contents (Elt F) → (⟨S8192x64x64, .f32⟩ : BufTy).Contents (Elt F)),
    binary main_v66 main_v69 main_v70 (addf : (⟨S8192x64x64, .f32⟩ : BufTy).Contents (Elt F) → (⟨S8192x64x64, .f32⟩ : BufTy).Contents (Elt F) → (⟨S8192x64x64, .f32⟩ : BufTy).Contents (Elt F)),
    binary main_v69 main_v23 main_v71 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_21 (constant S_ .f32 0x3DBA2E8C#32),
    unary main_cst_21 main_v72 (broadcastInDim S8192x64x64 ![] bcast_S_S8192x64x64 : (⟨S_, .f32⟩ : BufTy).Contents (Elt F) → (⟨S8192x64x64, .f32⟩ : BufTy).Contents (Elt F)),
    binary main_v71 main_v72 main_v73 (mulf : (⟨S8192x64x64, .f32⟩ : BufTy).Contents (Elt F) → (⟨S8192x64x64, .f32⟩ : BufTy).Contents (Elt F) → (⟨S8192x64x64, .f32⟩ : BufTy).Contents (Elt F)),
    binary main_v70 main_v73 main_v74 (addf : (⟨S8192x64x64, .f32⟩ : BufTy).Contents (Elt F) → (⟨S8192x64x64, .f32⟩ : BufTy).Contents (Elt F) → (⟨S8192x64x64, .f32⟩ : BufTy).Contents (Elt F)),
    binary main_v73 main_v23 main_v75 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    nullary main_cst_22 (constant S_ .f32 0x3DAAAAAB#32),
    unary main_cst_22 main_v76 (broadcastInDim S8192x64x64 ![] bcast_S_S8192x64x64 : (⟨S_, .f32⟩ : BufTy).Contents (Elt F) → (⟨S8192x64x64, .f32⟩ : BufTy).Contents (Elt F)),
    binary main_v75 main_v76 main_v77 (mulf : (⟨S8192x64x64, .f32⟩ : BufTy).Contents (Elt F) → (⟨S8192x64x64, .f32⟩ : BufTy).Contents (Elt F) → (⟨S8192x64x64, .f32⟩ : BufTy).Contents (Elt F)),
    binary main_v74 main_v77 main_v78 (addf : (⟨S8192x64x64, .f32⟩ : BufTy).Contents (Elt F) → (⟨S8192x64x64, .f32⟩ : BufTy).Contents (Elt F) → (⟨S8192x64x64, .f32⟩ : BufTy).Contents (Elt F)) ]

/-- The ten squarings, ending in the result `main_v88`. -/
abbrev opsSquare : List (HloOp τ sig (Elt F)) :=
  [ binary main_v78 main_v78 main_v79 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v79 main_v79 main_v80 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v80 main_v80 main_v81 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v81 main_v81 main_v82 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v82 main_v82 main_v83 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v83 main_v83 main_v84 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v84 main_v84 main_v85 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v85 main_v85 main_v86 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v86 main_v86 main_v87 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)),
    binary main_v87 main_v87 main_v88 ((fun l r => Host.dotGeneral dot_S8192x64x64_S8192x64x64_S8192x64x64_2_1_1_2_0_0 none l r) : (⟨S8192x64x64, .f32⟩ : BufTy).Contents (Elt F) → (⟨S8192x64x64, .f32⟩ : BufTy).Contents (Elt F) → (⟨S8192x64x64, .f32⟩ : BufTy).Contents (Elt F)) ]

/-- The whole program's operations, in order. -/
abbrev ops : List (HloOp τ sig (Elt F)) := (opsSkew ++ opsTaylorA) ++ (opsTaylorB ++ opsSquare)

set_option maxRecDepth 8192 in
set_option maxHeartbeats 4000000 in
theorem main_part0_eq (c : Dev nD) : main_part0 (F := F) c = seq (opsSkew ++ opsTaylorA) := rfl
set_option maxRecDepth 8192 in
set_option maxHeartbeats 4000000 in
theorem main_part1_eq (c : Dev nD) : main_part1 (F := F) c = seq (opsTaylorB ++ opsSquare) := rfl
set_option maxRecDepth 8192 in
theorem main_eq (c : Dev nD) : main (F := F) c = seq ops := by
  rw [show (ops : List (HloOp τ sig (Elt F))) = (opsSkew ++ opsTaylorA) ++ (opsTaylorB ++ opsSquare) from rfl,
    seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsSkew_sub : (opsSkew : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩
set_option maxRecDepth 8192 in
theorem opsTaylorA_sub : (opsTaylorA : List (HloOp τ sig (Elt F))).Forall fun op => op.bufs ⊆ tcRefs τ sig :=
  ⟨nullary_bufs_sub .., unary_bufs_sub .., binary_bufs_sub .., nullary_bufs_sub .., nullary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub ..⟩
set_option maxRecDepth 8192 in
theorem opsTaylorB_sub : (opsTaylorB : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩
set_option maxRecDepth 8192 in
theorem opsSquare_sub : (opsSquare : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (h | h) | (h | h)
    exacts [List.forall_iff_forall_mem.mp opsSkew_sub op h, List.forall_iff_forall_mem.mp opsTaylorA_sub op h,
      List.forall_iff_forall_mem.mp opsTaylorB_sub op h, List.forall_iff_forall_mem.mp opsSquare_sub op h]

/-- The contents after two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after the whole program, stretch by stretch. -/
theorem after_ops (V : Valuation τ sig (Elt F)) :
    after ops V = after opsSquare (after opsTaylorB (after opsTaylorA (after opsSkew V))) := by
  rw [show (ops : List (HloOp τ sig (Elt F))) = (opsSkew ++ opsTaylorA) ++ (opsTaylorB ++ opsSquare) from rfl,
    after_app, after_app, after_app]

/-- Every weakly fair execution of the reference terminates with each buffer at the fold of the operations over
    its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.HostRun

end
-- ==== Proof.RefDefs.lean ====
/-
  The reference's array operations, named: the stack of antisymmetric matrices the scatters build, its scaling, the
  identity stack, the batched product, and the Taylor terms and partial sums as recursions over the term's number —
  the same recursions as the one-matrix specification, one level up.
-/
import proofs.«129917_j34445637714305_1_alg».proof.Proof.Gen.ReferenceIdeal
import proofs.«129917_j34445637714305_1_alg».proof.Proof.ExpmSpec

noncomputable section

namespace Cert.ReferenceIdeal.HostValue

open Cert.ReferenceIdeal Cert.ReferenceIdeal.Gen
open Idealize.ShloMosaic
open Cert.Expm

variable {F : FTy → Type} [FloatOps F]

/-! ## The array operations of the program, named -/

/-- The stack of antisymmetric matrices: the parameters scattered below the diagonal of a zero array, their negations
    above it (the two index tables are the program's literal tables, never opened here). -/
def skew (θ : FVec F S8192x2016 .f32) : FVec F S8192x64x64 .f32 :=
  Host.scatter scatter_S8192x64x64_S2016x2_S8192x2016_0_12_12_1 (fun _ b => b)
    (Host.scatter scatter_S8192x64x64_S2016x2_S8192x2016_0_12_12_1 (fun _ b => b)
      (broadcastInDim S8192x64x64 ![] bcast_S_S8192x64x64 (constant S_ .f32 0x00000000#32))
      (concatenate S2016x2 1
        [⟨S2016x1, broadcastInDim S2016x1 ![0] bcast_S2016_S2016x1_0 (select (constantI S2016 1 0#1) (addi (fun i => lit0 (S2016.rowMajor i)) (broadcastInDim S2016 ![] bcast_S_S2016 (constantI S_ 32 64#32))) (fun i => lit0 (S2016.rowMajor i)))⟩,
         ⟨S2016x1, broadcastInDim S2016x1 ![0] bcast_S2016_S2016x1_0 (select (constantI S2016 1 0#1) (addi (fun i => lit1 (S2016.rowMajor i)) (broadcastInDim S2016 ![] bcast_S_S2016 (constantI S_ 32 64#32))) (fun i => lit1 (S2016.rowMajor i)))⟩]
        concatenates_S2016x1_S2016x1_S2016x2_d1)
      θ)
    (concatenate S2016x2 1
      [⟨S2016x1, broadcastInDim S2016x1 ![0] bcast_S2016_S2016x1_0 (select (constantI S2016 1 0#1) (addi (fun i => lit1 (S2016.rowMajor i)) (broadcastInDim S2016 ![] bcast_S_S2016 (constantI S_ 32 64#32))) (fun i => lit1 (S2016.rowMajor i)))⟩,
       ⟨S2016x1, broadcastInDim S2016x1 ![0] bcast_S2016_S2016x1_0 (select (constantI S2016 1 0#1) (addi (fun i => lit0 (S2016.rowMajor i)) (broadcastInDim S2016 ![] bcast_S_S2016 (constantI S_ 32 64#32))) (fun i => lit0 (S2016.rowMajor i)))⟩]
      concatenates_S2016x1_S2016x1_S2016x2_d1)
    (Host.negf θ)

/-- Every matrix scaled by 2^-10. -/
def scaleArr (K : FVec F S8192x64x64 .f32) : FVec F S8192x64x64 .f32 :=
  mulf K (broadcastInDim S8192x64x64 ![] bcast_S_S8192x64x64 (constant S_ .f32 0x3A800000#32))

/-- The identity, repeated along the stack. -/
def eyeArr : FVec F S8192x64x64 .f32 :=
  broadcastInDim S8192x64x64 ![1, 2] bcast_S64x64_S8192x64x64_1_2
    (uitofp .f32 (cmpi .eq (addi (iotaInDim S64x64 32 0) (broadcastInDim S64x64 ![] bcast_S_S64x64 (constantI S_ 32 0#32))) (iotaInDim S64x64 32 1)))

/-- The batched matrix product of two stacks. -/
def bdot (X Y : FVec F S8192x64x64 .f32) : FVec F S8192x64x64 .f32 :=
  Host.dotGeneral dot_S8192x64x64_S8192x64x64_S8192x64x64_2_1_1_2_0_0 none X Y

/-- The stack of k-th Taylor terms. -/
def termArr (A : FVec F S8192x64x64 .f32) : Nat → FVec F S8192x64x64 .f32
  | 0 => eyeArr
  | k + 1 => mulf (bdot (termArr A k) A) (broadcastInDim S8192x64x64 ![] bcast_S_S8192x64x64 (constant S_ .f32 (recipWord (k + 1))))

/-- The stack of k-th partial sums. -/
def partialArr (A : FVec F S8192x64x64 .f32) : Nat → FVec F S8192x64x64 .f32
  | 0 => eyeArr
  | k + 1 => addf (partialArr A k) (termArr A (k + 1))

/-- Every matrix squared. -/
def sqArr (X : FVec F S8192x64x64 .f32) : FVec F S8192x64x64 .f32 := bdot X X

/-- The result array as a function of the parameters. -/
def result (θ : FVec F S8192x2016 .f32) : FVec F S8192x64x64 .f32 :=
  pow10 sqArr (partialArr (scaleArr (skew θ)) 12)

end Cert.ReferenceIdeal.HostValue

end
-- ==== Proof.RefSkew.lean ====
/-
  The first stretch of the reference's run: after its 33 operations the buffer `main_v21` holds the stack of
  antisymmetric matrices built from whatever the argument buffer held.
-/
import proofs.«129917_j34445637714305_1_alg».proof.Proof.RefOps
import proofs.«129917_j34445637714305_1_alg».proof.Proof.RefDefs

noncomputable section

namespace Cert.ReferenceIdeal.HostValue

open Cert.ReferenceIdeal Cert.ReferenceIdeal.Gen Cert.ReferenceIdeal.HostRun
open Idealize.ShloMosaic Idealize.ShloMosaic.TcCoe Idealize.SL.Sem Idealize.ShloMosaic.StableHlo
open Cert.Expm

variable {F : FTy → Type} [FloatOps F]

set_option maxRecDepth 8192 in
set_option maxHeartbeats 4000000 in
/-- After the first 33 operations `main_v21` holds the antisymmetric stack of the argument. -/
theorem val_skew (V : Valuation τ sig (Elt F)) :
    after opsSkew V (Proc.devRef .tc main_v21) = skew (V (Proc.devRef .tc main_arg0)) := by
  after_results_simp <;> rfl

end Cert.ReferenceIdeal.HostValue

end
-- ==== Proof.RefTaylor.lean ====
/-
  The second and third stretches of the reference's run, from any contents: the Taylor stretch leaves in `main_v78`
  the twelfth partial sum of the scaled stack it found in `main_v21`, and the last ten operations square what they
  find in `main_v78` ten times into `main_v88`.
-/
import proofs.«129917_j34445637714305_1_alg».proof.Proof.RefOps
import proofs.«129917_j34445637714305_1_alg».proof.Proof.RefDefs

noncomputable section

namespace Cert.ReferenceIdeal.HostValue

open Cert.ReferenceIdeal Cert.ReferenceIdeal.Gen Cert.ReferenceIdeal.HostRun
open Idealize.ShloMosaic Idealize.ShloMosaic.TcCoe Idealize.SL.Sem Idealize.ShloMosaic.StableHlo
open Cert.Expm

variable {F : FTy → Type} [FloatOps F]

set_option maxRecDepth 8192 in
set_option maxHeartbeats 4000000 in
/-- After the Taylor stretch `main_v78` holds the twelfth partial sum of what `main_v21` held, scaled. -/
theorem val_taylor (W : Valuation τ sig (Elt F)) :
    after opsTaylorB (after opsTaylorA W) (Proc.devRef .tc main_v78)
      = partialArr (scaleArr (W (Proc.devRef .tc main_v21))) 12 := by
  after_results_simp <;> rfl

set_option maxRecDepth 8192 in
/-- After the last ten operations `main_v88` holds what `main_v78` held, squared ten times. -/
theorem val_square (W : Valuation τ sig (Elt F)) :
    after opsSquare W (Proc.devRef .tc main_v88) = pow10 sqArr (W (Proc.devRef .tc main_v78)) := by
  after_results_simp <;> rfl

end Cert.ReferenceIdeal.HostValue

end
-- ==== Proof.RefRun.lean ====
/-
  The reference's run read back: the three stretches composed give the result buffer as one function of the
  argument, and no operation writes the argument.
-/
import proofs.«129917_j34445637714305_1_alg».proof.Proof.RefSkew
import proofs.«129917_j34445637714305_1_alg».proof.Proof.RefTaylor

noncomputable section

namespace Cert.ReferenceIdeal.HostValue

open Cert.ReferenceIdeal Cert.ReferenceIdeal.Gen Cert.ReferenceIdeal.HostRun
open Idealize.ShloMosaic Idealize.ShloMosaic.TcCoe Idealize.SL.Sem Idealize.ShloMosaic.StableHlo
open Cert.Expm

variable {F : FTy → Type} [FloatOps F]

/-- The result buffer after the whole program. -/
theorem val_result (V : Valuation τ sig (Elt F)) :
    after ops V (Proc.devRef .tc main_v88) = result (V (Proc.devRef .tc main_arg0)) := by
  rw [after_ops, val_square, val_taylor, val_skew]; rfl

set_option maxRecDepth 8192 in
/-- No operation writes the argument. -/
theorem val_arg (V : Valuation τ sig (Elt F)) :
    after ops V (Proc.devRef .tc main_arg0) = V (Proc.devRef .tc main_arg0) :=
  after_of_forall_not_mem (b := Proc.devRef .tc main_arg0) _ _ (List.forall_iff_forall_mem.mp (by
    simp only [ops, opsSkew, opsTaylorA, opsTaylorB, opsSquare, List.cons_append, List.nil_append, List.Forall,
      nullary_writes, unary_writes, binary_writes, ternary_writes, Finset.mem_singleton]
    repeat' apply And.intro
    all_goals exact devRef_ne_of_ne (by decide)))

/-- The launch contents of the argument buffer, as the claims spell them. -/
theorem launch_arg (m : (ℓ : Loc nD τ sig) → Buf (Elt F) ℓ) (c : Dev nD) :
    launchContents m c (Proc.devRef .tc main_arg0) = m ((c.tc : Thread nD τ).loc main_arg0) := rfl

/-- The reference's run: the result buffer at `result` of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = result (m ((c.tc : Thread nD τ).loc main_arg0))
      ∧ r.2.mem ((c.tc : Thread nD τ).loc main_arg0) = m ((c.tc : Thread nD τ).loc main_arg0) :=
  (θ_run defs _ _).mono (fun _ h c =>
      ⟨(h c main_v88).trans ((val_result (launchContents m c)).trans (congrArg result (launch_arg m c))),
       (h c main_arg0).trans ((val_arg (launchContents m c)).trans (launch_arg m c))⟩)
    (run_after m ρ)

end Cert.ReferenceIdeal.HostValue

end
-- ==== Proof.RefSlab.lean ====
/-
  The reference's result, one matrix at a time. Each array operation of the chain acts on every matrix of the stack
  separately — the batched product as the matrix product, the products with a constant and the sums entrywise, the
  identity stack as the identity matrix — so matrix `b` of the result is the scaling-and-squaring exponential of
  matrix `b` of the antisymmetric stack.
-/
import proofs.«129917_j34445637714305_1_alg».proof.Proof.RefDefs
import Idealize.ShloMosaic.Lib.Pipeline.Value
import Idealize.ShloMosaic.Lib.ValueIdx

noncomputable section

namespace Cert.ReferenceIdeal.HostValue

open Cert.ReferenceIdeal Cert.ReferenceIdeal.Gen
open Idealize.ShloMosaic Idealize.ShloMosaic.ValueIdx
open Cert.BatchMat Cert.Expm

/-- The identity stack holds the identity matrix at every place. -/
theorem slab_eyeArr (b : Fin 8192) : slab (eyeArr (F := Ideal)) b = eyeM 64 := by
  funext i j
  show eyeArr (F := Ideal) (ix3 b i j) = _
  unfold eyeArr
  rw [broadcastInDim_apply _ _ _ (ix3 b i j) (ix2 i j) (fun a => by match a with | ⟨0, _⟩ => rfl | ⟨1, _⟩ => rfl)]
  exact eye_unsigned i j

theorem slab_scaleArr (K : FVec Ideal S8192x64x64 .f32) (b : Fin 8192) :
    slab (scaleArr K) b = scaleM scaleDown (slab K b) := rfl

theorem slab_bdot (X Y : FVec Ideal S8192x64x64 .f32) (b : Fin 8192) :
    slab (bdot X Y) b = mmul (slab X b) (slab Y b) :=
  slab_dotGeneral _ Facts₀.dot_S8192x64x64_S8192x64x64_S8192x64x64_2_1_1_2_0_0_wf rfl none .single X Y b

theorem slab_sqArr (X : FVec Ideal S8192x64x64 .f32) (b : Fin 8192) : slab (sqArr X) b = msq (slab X b) :=
  slab_bdot X X b

theorem slab_termArr (A : FVec Ideal S8192x64x64 .f32) (b : Fin 8192) : ∀ k, slab (termArr A k) b = term (slab A b) k
  | 0 => slab_eyeArr b
  | k + 1 => by
    show slab (mulf (bdot (termArr A k) A) _) b = scaleM (recip (k + 1)) (mmul (term (slab A b) k) (slab A b))
    rw [← slab_termArr A b k, ← slab_bdot]; rfl

theorem slab_partialArr (A : FVec Ideal S8192x64x64 .f32) (b : Fin 8192) : ∀ k, slab (partialArr A k) b = partialSum (slab A b) k
  | 0 => slab_eyeArr b
  | k + 1 => by
    show slab (addf (partialArr A k) (termArr A (k + 1))) b = addM (partialSum (slab A b) k) (term (slab A b) (k + 1))
    rw [← slab_partialArr A b k, ← slab_termArr A b (k + 1)]; rfl

/-- Matrix `b` of the reference's result is the exponential of matrix `b` of the antisymmetric stack. -/
theorem slab_result (θ : FVec Ideal S8192x2016 .f32) (b : Fin 8192) :
    slab (result θ) b = expm (slab (skew θ) b) := by
  unfold result expm pow10
  rw [slab_sqArr, slab_sqArr, slab_sqArr, slab_sqArr, slab_sqArr, slab_sqArr, slab_sqArr, slab_sqArr, slab_sqArr,
    slab_sqArr, slab_partialArr, slab_scaleArr]

end Cert.ReferenceIdeal.HostValue

end
-- ==== Proof.lean ====
/-
  The kernel and its reference compute, at the ideal values, the same function of the parameters.
  Both first scatter the 2016 parameters of each batch entry into an antisymmetric 64 × 64 matrix — the same host
  operations in both programs, over the same two index tables. The reference then runs the scaling-and-squaring
  exponential (scale by 2^-10, twelve Taylor terms, ten squarings) on the whole stack of 8192 matrices with batched
  products; the kernel runs the same chain on blocks of 128 matrices, one block per grid point. A batched product acts
  on every matrix of a stack separately, so either way matrix `b` of the result is the exponential of matrix `b` of
  the stack, computed with the same sums and products in the same order: the results agree entry by entry over the
  extended reals, with no appeal to finiteness. The idealization rewrote nothing, so `preserves` has no conjunct.
-/
import proofs.«129917_j34445637714305_1_alg».proof.Defs
import proofs.«129917_j34445637714305_1_alg».proof.Proof.Gen.Kernel
import proofs.«129917_j34445637714305_1_alg».proof.Proof.Gen.Kernel.Skeleton
import proofs.«129917_j34445637714305_1_alg».proof.Proof.Gen.Kernel.Launch
import proofs.«129917_j34445637714305_1_alg».proof.Proof.Gen.Kernel.Points
import proofs.«129917_j34445637714305_1_alg».proof.Proof.Gen.Kernel.Frame
import proofs.«129917_j34445637714305_1_alg».proof.Proof.Gen.KernelIdeal
import proofs.«129917_j34445637714305_1_alg».proof.Proof.Gen.KernelIdeal.Skeleton
import proofs.«129917_j34445637714305_1_alg».proof.Proof.Gen.KernelIdeal.Launch
import proofs.«129917_j34445637714305_1_alg».proof.Proof.Gen.KernelIdeal.Points
import proofs.«129917_j34445637714305_1_alg».proof.Proof.Gen.KernelIdeal.Frame
import proofs.«129917_j34445637714305_1_alg».proof.Proof.Gen.KernelIdeal.Value
import proofs.«129917_j34445637714305_1_alg».proof.Proof.Gen.ReferenceIdeal
import proofs.«129917_j34445637714305_1_alg».proof.Proof.Gen.Pre_finite_inputs
import proofs.«129917_j34445637714305_1_alg».proof.Proof.KerValue
import proofs.«129917_j34445637714305_1_alg».proof.Proof.RefRun
import proofs.«129917_j34445637714305_1_alg».proof.Proof.RefSlab
import Idealize.ShloMosaic.Adequacy
import Idealize.ShloMosaic.Init

noncomputable section

namespace Cert.Proof

open Idealize.ShloMosaic Idealize.ShloMosaic.TcCoe Idealize.SL.Sem
open Cert.BatchMat Cert.Expm

/-! ## The two programs' results are one function of the parameters -/

/-- The two programs' tables of row numbers are one table. -/
theorem lit0_eq : Cert.ReferenceIdeal.lit0 = Cert.KernelIdeal.lit0 := rfl

/-- The two programs' tables of column numbers are one table. -/
theorem lit1_eq : Cert.ReferenceIdeal.lit1 = Cert.KernelIdeal.lit1 := rfl

/-- Both programs build the same stack of antisymmetric matrices: the same operations over the same literal tables. -/
theorem skew_eq (θ : FVec Ideal Cert.KernelIdeal.S8192x2016 .f32) :
    Cert.ReferenceIdeal.HostValue.skew (F := Ideal) θ = Cert.KernelIdeal.Whole.skew (F := Ideal) θ := by
  unfold Cert.ReferenceIdeal.HostValue.skew Cert.KernelIdeal.Whole.skew
  rw [lit0_eq, lit1_eq]
  rfl

/-- The reference's result array is the kernel's: entry (b, i, j) of either is entry (i, j) of the exponential of
    matrix `b` of the antisymmetric stack. -/
theorem result_eq (θ : FVec Ideal Cert.KernelIdeal.S8192x2016 .f32) :
    Cert.ReferenceIdeal.HostValue.result (F := Ideal) θ = Cert.KernelIdeal.Whole.G (Cert.KernelIdeal.Whole.skew θ) := by
  funext y
  refine (eq_of_slab (Cert.ReferenceIdeal.HostValue.result (F := Ideal) θ) y).trans ?_
  refine (congrFun (congrFun (Cert.ReferenceIdeal.HostValue.slab_result θ (y 0)) (y 1)) (y 2)).trans ?_
  exact congrArg (fun K : Cert.KernelIdeal.S8192x64x64.Idx → EReal => expm (slab K (y 0)) (y 1) (y 2)) (skew_eq θ)

/-! ## The claims -/

theorem frame_k : Cert.frame_Kernel := fun m ρ _ => Cert.Kernel.Gen.frame m ρ

theorem frame_ki : Cert.frame_KernelIdeal := fun m ρ _ => Cert.KernelIdeal.Gen.frame m ρ

/-- The reference is a straight line of host operations, none of which writes the argument. -/
theorem frame_ri : Cert.frame_ReferenceIdeal := fun m ρ _ =>
  (θ_run Cert.ReferenceIdeal.defs _ _).mono (fun _ h c => (h c).2) (Cert.ReferenceIdeal.HostValue.run (F := Ideal) m ρ)

/-- The kernel's result array ends at the exponential of every matrix of the antisymmetric stack of its argument, and
    so does the reference's, from an argument that agrees. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostValue.run (F := Ideal) m' ρ')
  rw [hagree c]
  exact result_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
